-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S16384x4096 : Shape := ⟨2, ![16384, 4096]⟩
abbrev S16384 : Shape := ⟨1, ![16384]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S2x2048x4096 .f32) (main_arg1 : IVec S16384x4096 32) (main_arg2 : FVec F S16384 .f32) (main_arg3 : FVec F S16384 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S2x2048x4096 : Shape := ⟨3, ![2, 2048, 4096]⟩
abbrev S16384x4096 : Shape := ⟨2, ![16384, 4096]⟩
abbrev S16384 : Shape := ⟨1, ![16384]⟩
abbrev S4096x4096 : Shape := ⟨2, ![4096, 4096]⟩
abbrev S4096x16384 : Shape := ⟨2, ![4096, 16384]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S2x2048x16384 : Shape := ⟨3, ![2, 2048, 16384]⟩

abbrev nBuf : Space → Nat
  | .hbm => 7
  | .vmem => 11
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S4096x4096, .f32⟩
  | .hbm, ⟨5, _⟩ => ⟨S4096x16384, .f32⟩
  | .hbm, ⟨6, _⟩ => ⟨S2x2048x16384, .f32⟩
  | .local _ .vmem, ⟨0, _⟩ => ⟨S512x1024, .f32⟩
  | .local _ .vmem, ⟨1, _⟩ => ⟨S512x1024, .f32⟩
  | .local _ .vmem, ⟨2, _⟩ => ⟨S1024x1024, .i32⟩
  | .local _ .vmem, ⟨3, _⟩ => ⟨S1024x1024, .i32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2x2048x4096_S4096x4096 : S2x2048x4096.ShapeCasts S4096x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1024x1 : S1024.ShapeCasts S1024x1
  broadcasts_S1024x1_S1024x1024 : S1024x1.Broadcasts S1024x1024
  shapeCasts_S1024_S1x1024 : S1024.ShapeCasts S1x1024
  broadcasts_S1x1024_S512x1024 : S1x1024.Broadcasts S512x1024
  shapeCasts_S4096x16384_S2x2048x16384 : S4096x16384.ShapeCasts S2x2048x16384
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x4096.size a
  hwx0_1 : ∀ i : grid0.Coords, EltTy.bits .i32 = 32 ∨ (Rect.block (s := S16384x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S16384.size a
  hwx0_2 : ∀ i : grid0.Coords, EltTy.bits .f32 = 32 ∨ (Rect.block (s := S16384) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S16384.size a
  hwx0_3 : ∀ i : grid0.Coords, EltTy.bits .f32 = 32 ∨ (Rect.block (s := S16384) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x16384.size a
  hwx0_4 : ∀ i : grid0.Coords, EltTy.bits .f32 = 32 ∨ (Rect.block (s := S4096x16384) S512x1024.size (cc0_transform_4 i) (hinb0_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S16384x4096 : Shape := ⟨2, ![16384, 4096]⟩
abbrev S16384 : Shape := ⟨1, ![16384]⟩
abbrev S16384x1 : Shape := ⟨2, ![16384, 1]⟩
abbrev S2x2048x16384 : Shape := ⟨3, ![2, 2048, 16384]⟩
abbrev S1x1x16384 : Shape := ⟨3, ![1, 1, 16384]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S16384x4096, .f32⟩
  | .hbm, ⟨5, _⟩ => ⟨S16384x1, .f32⟩
  | .hbm, ⟨6, _⟩ => ⟨S16384x4096, .f32⟩
  | .hbm, ⟨7, _⟩ => ⟨S16384x4096, .f32⟩
  | .hbm, ⟨8, _⟩ => ⟨S2x2048x16384, .f32⟩
  | .hbm, ⟨9, _⟩ => ⟨S1x1x16384, .f32⟩
  | .hbm, ⟨10, _⟩ => ⟨S2x2048x16384, .f32⟩
  | .hbm, ⟨11, _⟩ => ⟨S2x2048x16384, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  dot_S2x2048x4096_S16384x4096_S2x2048x16384_2_1_01_0_n_n_wf : DotDims.WF S2x2048x4096 S16384x4096 S2x2048x16384 [2] [1] [0, 1] [0] [] []

variable [Facts₀]

def dot_S2x2048x4096_S16384x4096_S2x2048x16384_2_1_01_0_n_n : DotDims S2x2048x4096 S16384x4096 S2x2048x16384 where
  lhsContracting := [2]
  rhsContracting := [1]
  lhsNonContracting := [0, 1]
  rhsNonContracting := [0]
  lhsBatch := []
  rhsBatch := []
  wf := dot_S2x2048x4096_S16384x4096_S2x2048x16384_2_1_01_0_n_n_wf

class Facts : Prop extends Facts₀ where

variable [Facts]
-- ==== Proof.Pieces.lean ====
/-
  What each control case of the body leaves behind, as a value.

  The body keeps a running block `acc` of shape [512, 1024] across the four steps `k = 0, 1, 2, 3` of the contraction axis.
  Writing `P(x, w, s, a)` for "`a` plus the product of the row block `x` with the scaled weight block `w · s`" (the second
  payload) and `Z` for the zero block (the first payload), the three cases are:

    k = 0       : acc ← P(x, w, s, Z)                      (the zero block is stored, read back, and added to)
    k = 1, 2    : acc ← P(x, w, s, acc)
    k = 3       : acc ← P(x, w, s, acc), then out ← acc + bias   (the third payload, of the accumulator just stored)

  Each lemma reads the stores a case performs back through the whole buffer: a store through the full rectangle at zero
  offsets leaves its payload, and a load through that rectangle reads the contents.
-/
import proofs.«175296_j84224308675079_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a rank-2 access, spelt as a constant function. -/
theorem hz2 : (![0, 0] : Fin 2 → Nat) = fun _ => 0 := funext fun a => by fin_cases a <;> rfl
/-- The zero offset of a rank-1 access. -/
theorem hz1 : (![0] : Fin 1 → Nat) = fun _ => 0 := funext fun a => by fin_cases a; rfl

/-- Steps `k = 1, 2`: the accumulator ends at `P(x, w, s, acc)`. -/
theorem acc_B (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i) (x0 : Vec F S512x1024 .f32) (x1 : Vec F S1024x1024 .i32) (x2 : Vec F S1024 .f32) (x3 : Vec F S1024 .f32) (xs0 : Vec F S512x1024 .f32) :
    sout0_B_0 c i arg3 harg3 arg4 harg4 arg5 harg5 arg6 harg6 arg7 harg7 arg8 harg8 hc0 hc1 x0 x1 x2 x3 xs0 = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz2]
  simp only [View.readAt_eq_ld, harg3.read_unread, harg4.read_unread, harg5.read_unread, harg6.read_unread, harg8.read_unread,
    View.ld_unit_zero (S := S512x1024) hz2, View.ld_unit_zero (S := S1024x1024) hz2, View.ld_unit_zero (S := S1024) hz1]

/-- Step `k = 0`: the zero block is stored first and read back, so the accumulator ends at `P(x, w, s, Z)`. -/
theorem acc_A (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i) (x0 : Vec F S512x1024 .f32) (x1 : Vec F S1024x1024 .i32) (x2 : Vec F S1024 .f32) (x3 : Vec F S1024 .f32) :
    sout0_A_0 c i arg3 harg3 arg4 harg4 arg5 harg5 arg6 harg6 arg7 harg7 arg8 harg8 hc0 hc1 x0 x1 x2 x3 = k0_pay2 x0 x1 x2 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x1024) hz2, View.readCov_unit_zero (S := S512x1024) _ hz2]
  simp only [View.readAt_eq_ld, harg3.read_unread, harg4.read_unread, harg5.read_unread, harg6.read_unread, harg8.read_unread,
    View.ld_unit_zero (S := S512x1024) hz2, View.ld_unit_zero (S := S1024x1024) hz2, View.ld_unit_zero (S := S1024) hz1]

/-- Step `k = 3`: the accumulator ends at `P(x, w, s, acc)` as at the steps before, -/
theorem acc_C (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i) (x0 : Vec F S512x1024 .f32) (x1 : Vec F S1024x1024 .i32) (x2 : Vec F S1024 .f32) (x3 : Vec F S1024 .f32) (xs0 : Vec F S512x1024 .f32) :
    sout0_C_0 c i arg3 harg3 arg4 harg4 arg5 harg5 arg6 harg6 arg7 harg7 arg8 harg8 hc0 hc1 x0 x1 x2 x3 xs0 = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread,
    View.ld_unit_zero (S := S512x1024) hz2, View.ld_unit_zero (S := S1024x1024) hz2, View.ld_unit_zero (S := S1024) hz1]

/-- and the output block is that accumulator, read back, plus the bias row. -/
theorem out_C (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S1024 .f32) (harg5 : arg5.IsWhole) (arg6 : Memref sig .tc .vmem S1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i) (x0 : Vec F S512x1024 .f32) (x1 : Vec F S1024x1024 .i32) (x2 : Vec F S1024 .f32) (x3 : Vec F S1024 .f32) (xs0 : Vec F S512x1024 .f32) :
    out0_C_4 c i arg3 harg3 arg4 harg4 arg5 harg5 arg6 harg6 arg7 harg7 arg8 harg8 hc0 hc1 x0 x1 x2 x3 xs0 = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz2, View.readCov_unit_zero (S := S512x1024) _ hz2]
  simp only [View.readAt_eq_ld, harg3.read_unread, harg4.read_unread, harg5.read_unread, harg6.read_unread, harg8.read_unread,
    View.ld_unit_zero (S := S512x1024) hz2, View.ld_unit_zero (S := S1024x1024) hz2, View.ld_unit_zero (S := S1024) hz1]

end Cert.KernelIdeal.Pieces

end
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  The body's three stored values, read at an index on the extended reals.

  At `(p, q)` of a [512, 1024] block:
    * the zero block is `0`;
    * the accumulator update is `acc(p, q) + Σ_{k < 1024} x(p, k) · (w(q, k) · s(q))`, where `w(q, k)` is the integer weight read
      as a real and `s(q)` its row scale: the two roundings to bf16 on the way into the product are the identity on exact
      values, the product contracts the second axis of both operands into a zero accumulator (so it is the plain sum of
      products), and the scale column `[1024] → [1024, 1] → [1024, 1024]` reads entry `q` whatever `k` is;
    * the output is `acc(p, q) + bias(q)`: the bias row `[1024] → [1, 1024] → [512, 1024]` reads entry `q` whatever `p` is.
-/
import proofs.«175296_j84224308675079_1_alg».proof.Proof.Gen.KernelIdeal.Skeleton
import proofs.«175296_j84224308675079_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- The product's dimension numbers: both operands contract their second axis. -/
abbrev D := dot_S512x1024_S1024x1024_S512x1024_1_1_0_0_n_n

/-! ## The operand indices of the product -/

theorem lhs0 (j : S512x1024.Idx) (k : D.contr.Idx) : (D.lhsIdx j k 0).val = (j 0).val := by
  unfold DotDims.lhsIdx
  rw [dif_neg (show ¬(0 : Fin S512x1024.rank) ∈ D.lhsBatch by decide), dif_pos (show (0 : Fin S512x1024.rank) ∈ D.lhsNonContracting by decide)]
  rfl
theorem lhs1 (j : S512x1024.Idx) (k : D.contr.Idx) : (D.lhsIdx j k 1).val = (k ⟨0, by decide⟩).val :=
  D.lhsIdx_val_of_single rfl j k
theorem rhs0 (j : S512x1024.Idx) (k : D.contr.Idx) : (D.rhsIdx j k 0).val = (j 1).val := by
  unfold DotDims.rhsIdx
  rw [dif_neg (show ¬(0 : Fin S1024x1024.rank) ∈ D.rhsBatch by decide), dif_pos (show (0 : Fin S1024x1024.rank) ∈ D.rhsNonContracting by decide)]
  rfl
theorem rhs1 (j : S512x1024.Idx) (k : D.contr.Idx) : (D.rhsIdx j k 1).val = (k ⟨0, by decide⟩).val :=
  D.rhsIdx_val_of_single rfl j k

/-- The product into the zero block, at `(p, q)`: row `p` of the left operand against row `q` of the right one. -/
theorem matmul_zero_apply (L : FVec Ideal S512x1024 .bf16) (R : FVec Ideal S1024x1024 .bf16) (p : Fin 512) (q : Fin 1024) :
    matmul (F := Ideal) D none L R (constant (F := Ideal) S512x1024 .f32 0x00000000#32) (ix2 p q)
      = ∑ k : Fin 1024, L (ix2 p k) * R (ix2 q k) := by
  refine (Ideal.matmul_constant_zero_apply D none L R (ix2 p q)).trans ?_
  rw [← Equiv.sum_comp (ValueIdx.contrEquiv1 D 1024 rfl rfl).symm]
  refine Finset.sum_congr rfl fun k _ => ?_
  have hk := ValueIdx.contrEquiv1_symm_val D 1024 rfl rfl k
  have el : D.lhsIdx (ix2 p q) ((ValueIdx.contrEquiv1 D 1024 rfl rfl).symm k) = ix2 p k := funext fun a => Fin.ext (by
    match a with
    | ⟨0, _⟩ => exact lhs0 _ _
    | ⟨1, _⟩ => exact (lhs1 _ _).trans hk)
  have er : D.rhsIdx (ix2 p q) ((ValueIdx.contrEquiv1 D 1024 rfl rfl).symm k) = ix2 q k := funext fun a => Fin.ext (by
    match a with
    | ⟨0, _⟩ => exact rhs0 _ _
    | ⟨1, _⟩ => exact (rhs1 _ _).trans hk)
  rw [el, er]

/-- The scaled weight at `(q, k)`: the integer read as a real, times the scale of row `q`. -/
theorem weight_apply (v6 : Vec Ideal S1024x1024 .i32) (v8 : Vec Ideal S1024 .f32) (q k : Fin 1024) :
    mulf (F := Ideal) (sitofp .f32 v6)
        (broadcastTo S1024x1024 (shapeCast S1024x1 v8 shapeCasts_S1024_S1024x1) broadcasts_S1024x1_S1024x1024) (ix2 q k)
      = FloatOps.sitofp (F := Ideal) .f32 (v6 (ix2 q k)) * v8 (ix1 q) := by
  refine (mulf_apply _ _ _).trans ?_
  rw [broadcastTo_a1_ab_apply, shapeCast_a_a1_apply]
  rfl

/-- The zero block. -/
theorem pay1_apply (p : Fin 512) (q : Fin 1024) : k0_pay1 (F := Ideal) (ix2 p q) = 0 := by
  unfold k0_pay1
  rw [shapeCast_self]
  exact Ideal.ofBits_zero_f32

/-- The accumulator update. -/
theorem pay2_apply (v3 : Vec Ideal S512x1024 .f32) (v6 : Vec Ideal S1024x1024 .i32) (v8 : Vec Ideal S1024 .f32)
    (v13 : Vec Ideal S512x1024 .f32) (p : Fin 512) (q : Fin 1024) :
    k0_pay2 (F := Ideal) v3 v6 v8 v13 (ix2 p q)
      = v13 (ix2 p q) + ∑ k : Fin 1024, v3 (ix2 p k) * (FloatOps.sitofp (F := Ideal) .f32 (v6 (ix2 q k)) * v8 (ix1 q)) := by
  unfold k0_pay2
  rw [shapeCast_self, shapeCast_self]
  refine (addf_apply _ _ _).trans ?_
  refine congrArg (v13 (ix2 p q) + ·) ?_
  refine (matmul_zero_apply _ _ p q).trans ?_
  refine Finset.sum_congr rfl fun k _ => ?_
  exact congrArg (v3 (ix2 p k) * ·) (weight_apply v6 v8 q k)

/-- The output block. -/
theorem pay3_apply (v22 : Vec Ideal S512x1024 .f32) (v23 : Vec Ideal S1024 .f32) (p : Fin 512) (q : Fin 1024) :
    k0_pay3 (F := Ideal) v22 v23 (ix2 p q) = v22 (ix2 p q) + v23 (ix1 q) := by
  unfold k0_pay3
  refine (addf_apply _ _ _).trans ?_
  rw [broadcastTo_1b_ab_apply, shapeCast_a_1a_apply]

end Cert.KernelIdeal.Payload

end
-- ==== Proof.Blocks.lean ====
/-
  Where each block sits in its array.

  The grid has 8 · 16 · 4 = 512 points; point `t` has row-block `i = t / 64`, column-block `j = (t / 4) % 16` and
  contraction step `k = t % 4`. At `t` the body sees
    * rows `512·i …` and columns `1024·k …` of the activations (a [4096, 4096] array),
    * rows `1024·j …` and columns `1024·k …` of the integer weights (a [16384, 4096] array),
    * entries `1024·j …` of the scales and of the bias,
  and the output block is rows `512·i …`, columns `1024·j …` of the [4096, 16384] result. An element of a block at
  in-block coordinate `y` sits at (block index) · (block size) + `y` on each axis.

  The activations reach the region as the [2, 2048, 4096] argument viewed as [4096, 4096] (same row-major order).
-/
import proofs.«175296_j84224308675079_1_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx Idealize.ShloMosaic.StableHlo

namespace Cert.KernelIdeal.Blocks

open Cert.KernelIdeal Cert.KernelIdeal.Gen

variable {F : FTy → Type} [FloatOps F]
variable (m : (ℓ : Loc nD τ sig) → Buf (Elt F) ℓ)

/-- The block index of every window at every point, from the point's number. -/
theorem idx_facts : ∀ t : Fin cfg0.N,
    win0_0.index t (0 : Fin 2) = t.val / 64 ∧ win0_0.index t (1 : Fin 2) = t.val % 4
    ∧ win0_1.index t (0 : Fin 2) = t.val / 4 % 16 ∧ win0_1.index t (1 : Fin 2) = t.val % 4
    ∧ win0_2.index t (0 : Fin 1) = t.val / 4 % 16 ∧ win0_3.index t (0 : Fin 1) = t.val / 4 % 16
    ∧ win0_4.index t (0 : Fin 2) = t.val / 64 ∧ win0_4.index t (1 : Fin 2) = t.val / 4 % 16 :=
  (by decide +kernel : ∀ t : Fin grid0.N, _)

/-- The four input blocks at point `t`, each at its literal shape. -/
def blk0 (c : Dev nD) (t : Fin cfg0.N) : Vec F S512x1024 .f32 := iblk m c 0 t
def blk1 (c : Dev nD) (t : Fin cfg0.N) : Vec F S1024x1024 .i32 := iblk m c 1 t
def blk2 (c : Dev nD) (t : Fin cfg0.N) : Vec F S1024 .f32 := iblk m c 2 t
def blk3 (c : Dev nD) (t : Fin cfg0.N) : Vec F S1024 .f32 := iblk m c 3 t

/-- The activations' block at `t`, at `(p, k)`: row `512·(t/64) + p`, column `1024·(t%4) + k` of the array. -/
theorem iblk0_apply (c : Dev nD) (t : Fin cfg0.N) (p : Fin 512) (k : Fin 1024) (r kk : Fin 4096)
    (hr : r.val = 512 * (t.val / 64) + p.val) (hk : kk.val = 1024 * (t.val % 4) + k.val) :
    blk0 m c t (ix2 p k) = (V m c main_v0 : Vec F S4096x4096 .f32) (ix2 r kk) := by
  unfold blk0 iblk
  rw [View.read_apply]
  show V m c main_v0 _ = V m c main_v0 _
  refine congrArg (V m c main_v0) (funext fun a => Fin.ext ?_)
  match a with
  | ⟨0, _⟩ =>
    show win0_0.index t 0 * 512 + 1 * p.val = r.val
    rw [(idx_facts t).1, hr]; omega
  | ⟨1, _⟩ =>
    show win0_0.index t 1 * 1024 + 1 * k.val = kk.val
    rw [(idx_facts t).2.1, hk]; omega

/-- The weights' block at `t`, at `(q, k)`: row `1024·((t/4)%16) + q`, column `1024·(t%4) + k`. -/
theorem iblk1_apply (c : Dev nD) (t : Fin cfg0.N) (q k : Fin 1024) (n : Fin 16384) (kk : Fin 4096)
    (hn : n.val = 1024 * (t.val / 4 % 16) + q.val) (hk : kk.val = 1024 * (t.val % 4) + k.val) :
    blk1 m c t (ix2 q k) = (V m c main_arg1 : Vec F S16384x4096 .i32) (ix2 n kk) := by
  unfold blk1 iblk
  rw [View.read_apply]
  show V m c main_arg1 _ = V m c main_arg1 _
  refine congrArg (V m c main_arg1) (funext fun a => Fin.ext ?_)
  match a with
  | ⟨0, _⟩ =>
    show win0_1.index t 0 * 1024 + 1 * q.val = n.val
    rw [(idx_facts t).2.2.1, hn]; omega
  | ⟨1, _⟩ =>
    show win0_1.index t 1 * 1024 + 1 * k.val = kk.val
    rw [(idx_facts t).2.2.2.1, hk]; omega

/-- The scales' block at `t`, at `q`: entry `1024·((t/4)%16) + q`. -/
theorem iblk2_apply (c : Dev nD) (t : Fin cfg0.N) (q : Fin 1024) (n : Fin 16384)
    (hn : n.val = 1024 * (t.val / 4 % 16) + q.val) :
    blk2 m c t (ix1 q) = (V m c main_arg2 : Vec F S16384 .f32) (ix1 n) := by
  unfold blk2 iblk
  rw [View.read_apply]
  show V m c main_arg2 _ = V m c main_arg2 _
  refine congrArg (V m c main_arg2) (funext fun a => Fin.ext ?_)
  match a with
  | ⟨0, _⟩ =>
    show win0_2.index t 0 * 1024 + 1 * q.val = n.val
    rw [(idx_facts t).2.2.2.2.1, hn]; omega

/-- The bias' block at `t`, at `q`: entry `1024·((t/4)%16) + q`. -/
theorem iblk3_apply (c : Dev nD) (t : Fin cfg0.N) (q : Fin 1024) (n : Fin 16384)
    (hn : n.val = 1024 * (t.val / 4 % 16) + q.val) :
    blk3 m c t (ix1 q) = (V m c main_arg3 : Vec F S16384 .f32) (ix1 n) := by
  unfold blk3 iblk
  rw [View.read_apply]
  show V m c main_arg3 _ = V m c main_arg3 _
  refine congrArg (V m c main_arg3) (funext fun a => Fin.ext ?_)
  match a with
  | ⟨0, _⟩ =>
    show win0_3.index t 0 * 1024 + 1 * q.val = n.val
    rw [(idx_facts t).2.2.2.2.2.1, hn]; omega

/-- The activations as the region finds them: the argument viewed as [4096, 4096]. -/
theorem V_main_v0 (c : Dev nD) :
    (V m c main_v0 : Vec F S4096x4096 .f32)
      = shapeCast S4096x4096 (m ((c : Thread nD τ).loc main_arg0)) Facts₀.shapeCasts_S2x2048x4096_S4096x4096 := by
  show StableHlo.after hostOps0 (fun b => m (c, b)) (Proc.devRef .tc main_v0) = _
  after_results
  rfl

end Cert.KernelIdeal.Blocks

end
-- ==== Proof.Accum.lean ====
/-
  The running block across the four steps of the contraction axis.

  Points `4·b, 4·b + 1, 4·b + 2, 4·b + 3` share one output block. The scratch block is reset at the first of them
  (to the update of the zero block) and updated from what the point before left at each of the other three, so after
  point `t` it holds the fold of the update over the points `4·(t/4), …, t`. On the extended reals each update adds that
  point's block product to every entry, so after the last of the four the entry `(p, q)` is
  `0 + Σ_{s < 4}` (the product of row `p` and row `q` of the blocks at point `4·(t/4) + s`), and the output block written
  there is that plus the bias entry `q`.
-/
import proofs.«175296_j84224308675079_1_alg».proof.Proof.Pieces
import proofs.«175296_j84224308675079_1_alg».proof.Proof.Payload
import proofs.«175296_j84224308675079_1_alg».proof.Proof.Blocks
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Pieces Cert.KernelIdeal.Payload Cert.KernelIdeal.Blocks

section AnyValues

variable {F : FTy → Type} [FloatOps F]
variable (m : (ℓ : Loc nD τ sig) → Buf (Elt F) ℓ)

/-- The update at point `n`, as a function of the block it starts from. -/
def step (c : Dev nD) (n : ℕ) (h : n < cfg0.N) (acc : Vec F S512x1024 .f32) : Vec F S512x1024 .f32 :=
  k0_pay2 (blk0 m c ⟨n, h⟩) (blk1 m c ⟨n, h⟩) (blk2 m c ⟨n, h⟩) acc

/-- The reset at point `n`: the update of the zero block. -/
def start (c : Dev nD) (n : ℕ) (h : n < cfg0.N) : Vec F S512x1024 .f32 :=
  step m c n h (k0_pay1 (F := F))

/-- At a first step the scratch is reset. -/
theorem scratch_first (c : Dev nD) (t : Fin cfg0.N) (h0 : t.val % 4 = 0) :
    (outsAt0 m c t.val t.isLt).2 = k0_pay2 (blk0 m c t) (blk1 m c t) (blk2 m c t) (k0_pay1 (F := F)) := by
  have h1 : ¬t.val % 4 = 3 := by omega
  rw [outsAt0_A m c t h0 h1]
  dsimp only
  rw [acc_A]
  rfl

/-- At every other step it is updated from what the point before left. -/
theorem scratch_next (c : Dev nD) (t : Fin cfg0.N) (h0 : ¬t.val % 4 = 0) :
    (outsAt0 m c t.val t.isLt).2 = k0_pay2 (blk0 m c t) (blk1 m c t) (blk2 m c t) (outsAt0 m c (t.val - 1) (Nat.lt_of_le_of_lt (Nat.sub_le _ _) t.isLt)).2 := by
  by_cases h1 : t.val % 4 = 3
  · rw [outsAt0_C m c t h0 h1]
    dsimp only
    rw [acc_C]
    rfl
  · rw [outsAt0_B m c t h0 h1]
    dsimp only
    rw [acc_B]
    rfl

/-- At a last step the output block is the bias row added to the scratch just written. -/
theorem out_last (c : Dev nD) (t : Fin cfg0.N) (h3 : t.val % 4 = 3) :
    (outsAt0 m c t.val t.isLt).1 = k0_pay3 (outsAt0 m c t.val t.isLt).2 (blk3 m c t) := by
  have h0 : ¬t.val % 4 = 0 := by omega
  rw [outsAt0_C m c t h0 h3]
  dsimp only
  rw [out_C, acc_C]
  rfl

/-- So after point `t` the scratch holds the fold over the points `4·(t/4), …, t`. -/
theorem scratch_fold (c : Dev nD) (t : Fin cfg0.N) (h' : 4 * (t.val / 4) + t.val % 4 < cfg0.N) :
    (outsAt0 m c t.val t.isLt).2 = Pipeline.accAt (start m c) (step m c) (4 * (t.val / 4)) (t.val % 4) h' :=
  Pipeline.eq_accAt_of_mod (fun n h => (outsAt0 m c n h).2) 4 (start m c) (step m c)
    (fun n h hn => scratch_first m c ⟨n, h⟩ hn)
    (fun n h hn => scratch_next m c ⟨n + 1, h⟩ hn)
    (by decide) t.val t.isLt h'

end AnyValues

/-! ## On the extended reals -/

section Exact

variable (m : (ℓ : Loc nD τ sig) → Buf (Elt Ideal) ℓ)

/-- What point `n` adds to the entry `i` of the running block: row `i 0` of its activation block against row `i 1` of its
    scaled weight block (nothing past the grid). -/
def addend (c : Dev nD) (n : ℕ) (i : S512x1024.Idx) : EReal :=
  if h : n < cfg0.N then
    ∑ k : Fin 1024, blk0 m c ⟨n, h⟩ (ix2 (i 0) k)
      * (FloatOps.sitofp (F := Ideal) .f32 (blk1 m c ⟨n, h⟩ (ix2 (i 1) k)) * blk2 m c ⟨n, h⟩ (ix1 (i 1)))
  else 0

/-- The update adds the point's addend to every entry. -/
theorem step_apply (c : Dev nD) (n : ℕ) (h : n < cfg0.N) (acc : Vec Ideal S512x1024 .f32) (i : S512x1024.Idx) :
    step m c n h acc i = acc i + addend m c n i := by
  obtain ⟨p, q, rfl⟩ : ∃ (p : Fin 512) (q : Fin 1024), i = ix2 p q := ⟨i 0, i 1, eq_ix2 i⟩
  unfold step addend
  rw [dif_pos h]
  exact pay2_apply _ _ _ acc p q

/-- The reset leaves zero plus the point's addend. -/
theorem start_apply (c : Dev nD) (n : ℕ) (h : n < cfg0.N) (i : S512x1024.Idx) :
    start m c n h i = (0 : EReal) + addend m c n i := by
  obtain ⟨p, q, rfl⟩ : ∃ (p : Fin 512) (q : Fin 1024), i = ix2 p q := ⟨i 0, i 1, eq_ix2 i⟩
  unfold start
  rw [step_apply, pay1_apply]

/-- After a last step the scratch entry is the sum of the four points' addends. -/
theorem scratch_sum (c : Dev nD) (t : Fin cfg0.N) (h3 : t.val % 4 = 3) (i : S512x1024.Idx) :
    (outsAt0 m c t.val t.isLt).2 i = ∑ s ∈ Finset.range 4, addend m c (4 * (t.val / 4) + s) i := by
  have hN : cfg0.N = 512 := N_0
  have h' : 4 * (t.val / 4) + t.val % 4 < cfg0.N := by have := t.isLt; omega
  rw [scratch_fold m c t h']
  refine (Pipeline.accAt_add_apply (start m c) (step m c) (fun _ => (0 : EReal)) (addend m c) (4 * (t.val / 4)) 3
    (fun h i => start_apply m c _ h i) (fun n h acc i _ _ => step_apply m c n h acc i) (t.val % 4) (by omega) h' i).trans ?_
  rw [h3, zero_add]

end Exact

end Cert.KernelIdeal.Accum

end
-- ==== Proof.BlockSum.lean ====
/-
  Splitting a sum of 4096 terms into four consecutive runs of 1024.

  The contraction axis of length 4096 is walked in four steps of 1024: step `s` covers the indices
  `1024·s, …, 1024·s + 1023`. Every `k < 4096` is `1024·s + r` for exactly one pair `(s, r)` with `s < 4`, `r < 1024`
  (quotient and remainder), so summing the runs one after the other is summing over all of `k`. Only commutativity and
  associativity of addition are used, so the statement holds in any additive commutative monoid — in particular on the
  extended reals, where no term needs to be finite.
-/
import Mathlib.Algebra.BigOperators.Fin
import Mathlib.Algebra.BigOperators.Intervals

namespace BlockSum

variable {M : Type*} [AddCommMonoid M]

/-- The runs of length `b`, the first `a` of them, exhaust the first `b·a` indices. -/
theorem sum_range_blocks (b : ℕ) (g : ℕ → M) :
    ∀ a : ℕ, ∑ s ∈ Finset.range a, ∑ r ∈ Finset.range b, g (b * s + r) = ∑ k ∈ Finset.range (b * a), g k
  | 0 => by simp
  | a + 1 => by
    rw [Finset.sum_range_succ, sum_range_blocks b g a, Nat.mul_succ, Finset.sum_range_add]

/-- Four runs of 1024 indexed by `Fin`, against the one sum over `Fin 4096`. -/
theorem sum_four_blocks (g : ℕ → M) :
    ∑ s ∈ Finset.range 4, ∑ r : Fin 1024, g (1024 * s + r.val) = ∑ k : Fin 4096, g k.val := by
  have h := sum_range_blocks 1024 g 4
  rw [show 1024 * 4 = 4096 from rfl, Finset.sum_range (fun k => g k)] at h
  rw [← h]
  exact Finset.sum_congr rfl fun s _ => (Finset.sum_range (fun r => g (1024 * s + r))).symm

end BlockSum
-- ==== Proof.Spec.lean ====
/-
  The specification: a linear layer with integer weights scaled row by row.

      out[b, s, o] = Σ_{i < 4096} x[b, s, i] · (w[o, i] · scale[o]) + bias[o]

  on the extended reals, `w[o, i]` the integer read as a real. The kernel works on the activations flattened to
  [4096, 4096] (row `2048·b + s`) and produces a [4096, 16384] result that is viewed back as [2, 2048, 16384]; both
  views keep the row-major order, so entry `(b, s, ·)` of the one is entry `(2048·b + s, ·)` of the other.
-/
import Idealize.ShloMosaic.PureOps.Ideal
import Idealize.ShloMosaic.Lib.ValueIdx
import Idealize.ShloMosaic.Lib.Pipeline.Value

noncomputable section

open Idealize.ShloMosaic Idealize.ShloMosaic.ValueIdx

namespace QLinear

/-- The result, index by index, from the four arguments. -/
def G (x : Vec Ideal ⟨3, ![2, 2048, 4096]⟩ .f32) (w : Vec Ideal ⟨2, ![16384, 4096]⟩ .i32)
    (sc bias : Vec Ideal ⟨1, ![16384]⟩ .f32) : Vec Ideal ⟨3, ![2, 2048, 16384]⟩ .f32 :=
  fun i => (∑ k : Fin 4096, x (ix3 (i 0) (i 1) k) * (FloatOps.sitofp (F := Ideal) .f32 (w (ix2 (i 2) k)) * sc (ix1 (i 2))))
    + bias (ix1 (i 2))

/-- The same on flattened activations: entry `(r, o)` of the [4096, 16384] result. -/
def G2 (X : Vec Ideal ⟨2, ![4096, 4096]⟩ .f32) (w : Vec Ideal ⟨2, ![16384, 4096]⟩ .i32)
    (sc bias : Vec Ideal ⟨1, ![16384]⟩ .f32) : Vec Ideal ⟨2, ![4096, 16384]⟩ .f32 :=
  fun j => (∑ k : Fin 4096, X (ix2 (j 0) k) * (FloatOps.sitofp (F := Ideal) .f32 (w (ix2 (j 1) k)) * sc (ix1 (j 1))))
    + bias (ix1 (j 1))

/-- Flatten the activations, compute, view the result back: that is `G`. -/
theorem G2_reshape (x : Vec Ideal ⟨3, ![2, 2048, 4096]⟩ .f32) (w : Vec Ideal ⟨2, ![16384, 4096]⟩ .i32)
    (sc bias : Vec Ideal ⟨1, ![16384]⟩ .f32)
    (hin : (⟨3, ![2, 2048, 4096]⟩ : Shape).ShapeCasts ⟨2, ![4096, 4096]⟩)
    (hout : (⟨2, ![4096, 16384]⟩ : Shape).ShapeCasts ⟨3, ![2, 2048, 16384]⟩) :
    shapeCast ⟨3, ![2, 2048, 16384]⟩ (G2 (shapeCast ⟨2, ![4096, 4096]⟩ x hin) w sc bias) hout = G x w sc bias := by
  funext i
  obtain ⟨b, s, o, rfl⟩ : ∃ (b : Fin 2) (s : Fin 2048) (o : Fin 16384), i = ix3 b s o := ⟨i 0, i 1, i 2, eq_ix3 i⟩
  have hb := b.isLt
  have hs := s.isLt
  have ho := o.isLt
  let r : Fin 4096 := ⟨2048 * b.val + s.val, by omega⟩
  have hr : r.val = 2048 * b.val + s.val := rfl
  refine (shapeCast_apply _ hout (ix3 b s o) (ix2 r o) ?_).trans ?_
  · rw [Shape.rowMajor_val_two, Shape.rowMajor_val_three]
    show r.val * 16384 + o.val = (b.val * 2048 + s.val) * 16384 + o.val
    rw [hr]; ring
  · show (∑ k : Fin 4096, shapeCast ⟨2, ![4096, 4096]⟩ x hin (ix2 r k) * _) + _ = (∑ k : Fin 4096, x (ix3 b s k) * _) + _
    refine congrArg (· + bias (ix1 o)) (Finset.sum_congr rfl fun k _ => ?_)
    refine congrArg (· * (FloatOps.sitofp (F := Ideal) .f32 (w (ix2 o k)) * sc (ix1 o))) ?_
    refine shapeCast_apply x hin (ix2 r k) (ix3 b s k) ?_
    rw [Shape.rowMajor_val_two, Shape.rowMajor_val_three]
    show (b.val * 2048 + s.val) * 4096 + k.val = r.val * 4096 + k.val
    rw [hr]; ring

end QLinear

end
-- ==== Proof.Flush.lean ====
/-
  What a last step writes back.

  At a point `t` with `t % 4 = 3` the output block's entry `(p, q)` is the four points' block products summed, plus the bias.
  Point `4·(t/4) + s` reads columns `1024·s …` of row `r = 512·(t/64) + p` of the activations and of row
  `n = 1024·((t/4)%16) + q` of the weights, so the four sums of 1024 terms are the one sum over all 4096 columns: the entry
  is the flattened result at `(r, n)`, which is where the block's `(p, q)` sits in the array.
-/
import proofs.«175296_j84224308675079_1_alg».proof.Proof.Accum
import proofs.«175296_j84224308675079_1_alg».proof.Proof.BlockSum
import proofs.«175296_j84224308675079_1_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Flush

open Cert.KernelIdeal Cert.KernelIdeal.Gen Cert.KernelIdeal.Payload Cert.KernelIdeal.Blocks Cert.KernelIdeal.Accum

variable (m : (ℓ : Loc nD τ sig) → Buf (Elt Ideal) ℓ)

/-- The four arrays as the region finds them, each at its literal shape. -/
def X (c : Dev nD) : Vec Ideal S4096x4096 .f32 := V m c main_v0
def W (c : Dev nD) : Vec Ideal S16384x4096 .i32 := V m c main_arg1
def sc (c : Dev nD) : Vec Ideal S16384 .f32 := V m c main_arg2
def bi (c : Dev nD) : Vec Ideal S16384 .f32 := V m c main_arg3

/-- The flattened result, from those arrays. -/
def arr (c : Dev nD) : Vec Ideal S4096x16384 .f32 := QLinear.G2 (X m c) (W m c) (sc m c) (bi m c)

/-- The term of column `kk` in entry `(r, n)` (nothing past the axis). -/
def term (c : Dev nD) (r : Fin 4096) (n : Fin 16384) (kk : ℕ) : EReal :=
  if h : kk < 4096 then
    X m c (ix2 r ⟨kk, h⟩) * (FloatOps.sitofp (F := Ideal) .f32 (W m c (ix2 n ⟨kk, h⟩)) * sc m c (ix1 n))
  else 0

/-- What point `4·(t/4) + s` adds to the entry `(p, q)`: the terms of columns `1024·s, …, 1024·s + 1023`. -/
theorem addend_eq (c : Dev nD) (t : Fin cfg0.N) (s : ℕ) (hs : s < 4) (p : Fin 512) (q : Fin 1024) (r : Fin 4096) (n : Fin 16384)
    (hr : r.val = 512 * (t.val / 64) + p.val) (hn : n.val = 1024 * (t.val / 4 % 16) + q.val) :
    addend m c (4 * (t.val / 4) + s) (ix2 p q) = ∑ k : Fin 1024, term m c r n (1024 * s + k.val) := by
  have hN : cfg0.N = 512 := N_0
  have ht := t.isLt
  have hlt : 4 * (t.val / 4) + s < cfg0.N := by omega
  unfold addend
  rw [dif_pos hlt]
  refine Finset.sum_congr rfl fun k _ => ?_
  have hk := k.isLt
  have hkk : 1024 * s + k.val < 4096 := by omega
  unfold term
  rw [dif_pos hkk]
  have e0 : blk0 m c ⟨4 * (t.val / 4) + s, hlt⟩ (ix2 p k) = X m c (ix2 r ⟨1024 * s + k.val, hkk⟩) :=
    iblk0_apply m c ⟨4 * (t.val / 4) + s, hlt⟩ p k r ⟨1024 * s + k.val, hkk⟩
      (by show r.val = 512 * ((4 * (t.val / 4) + s) / 64) + p.val; omega)
      (by show 1024 * s + k.val = 1024 * ((4 * (t.val / 4) + s) % 4) + k.val; omega)
  have e1 : blk1 m c ⟨4 * (t.val / 4) + s, hlt⟩ (ix2 q k) = W m c (ix2 n ⟨1024 * s + k.val, hkk⟩) :=
    iblk1_apply m c ⟨4 * (t.val / 4) + s, hlt⟩ q k n ⟨1024 * s + k.val, hkk⟩
      (by show n.val = 1024 * ((4 * (t.val / 4) + s) / 4 % 16) + q.val; omega)
      (by show 1024 * s + k.val = 1024 * ((4 * (t.val / 4) + s) % 4) + k.val; omega)
  have e2 : blk2 m c ⟨4 * (t.val / 4) + s, hlt⟩ (ix1 q) = sc m c (ix1 n) :=
    iblk2_apply m c ⟨4 * (t.val / 4) + s, hlt⟩ q n
      (by show n.val = 1024 * ((4 * (t.val / 4) + s) / 4 % 16) + q.val; omega)
  exact congrArg₂ (fun a b => a * b) e0
    (congrArg₂ (fun a b => a * b) (congrArg (FloatOps.sitofp (F := Ideal) .f32) e1) e2)

/-- The entry `(r, n)` of the flattened result is its 4096 terms summed, plus the bias. -/
theorem arr_apply (c : Dev nD) (r : Fin 4096) (n : Fin 16384) :
    arr m c (ix2 r n) = (∑ k : Fin 4096, term m c r n k.val) + bi m c (ix1 n) := by
  show (∑ k : Fin 4096, X m c (ix2 r k) * (FloatOps.sitofp (F := Ideal) .f32 (W m c (ix2 n k)) * sc m c (ix1 n))) + bi m c (ix1 n) = _
  refine congrArg (· + bi m c (ix1 n)) (Finset.sum_congr rfl fun k _ => ?_)
  unfold term
  rw [dif_pos k.isLt]

/-- A last step writes back the block of the flattened result that sits at its block index. -/
theorem flushed_eq (c : Dev nD) (t : Fin cfg0.N) (hf : (cfg0.win 4).flush t = true) :
    (dats m 0 c).flushed 4 t = ((cfg0.win 4).blk t).view.read (Elt Ideal) (arr m c) := by
  have h3 : t.val % 4 = 3 := (flush0_4 t).mp hf
  have hN : cfg0.N = 512 := N_0
  have ht := t.isLt
  show (cfg0.win 4).cut (grid0.coords t) ((dats m 0 c).after 4 t) = _
  rw [after0_4, out_last m c t h3]
  refine funext fun (j : S512x1024.Idx) => ?_
  obtain ⟨p, q, rfl⟩ : ∃ (p : Fin 512) (q : Fin 1024), j = ix2 p q := ⟨j 0, j 1, eq_ix2 j⟩
  have hp := p.isLt
  have hq := q.isLt
  obtain ⟨r, hr⟩ : ∃ r : Fin 4096, r.val = 512 * (t.val / 64) + p.val := ⟨⟨512 * (t.val / 64) + p.val, by omega⟩, rfl⟩
  obtain ⟨n, hn⟩ : ∃ n : Fin 16384, n.val = 1024 * (t.val / 4 % 16) + q.val := ⟨⟨1024 * (t.val / 4 % 16) + q.val, by omega⟩, rfl⟩
  have hemb : ((cfg0.win 4).blk t).view.emb (ix2 p q) = ix2 r n := by
    funext a; apply Fin.ext
    match a with
    | ⟨0, _⟩ =>
      show win0_4.index t (0 : Fin 2) * 512 + 1 * p.val = r.val
      rw [(idx_facts t).2.2.2.2.2.2.1, hr]; omega
    | ⟨1, _⟩ =>
      show win0_4.index t (1 : Fin 2) * 1024 + 1 * q.val = n.val
      rw [(idx_facts t).2.2.2.2.2.2.2, hn]; omega
  rw [View.read_apply]
  show k0_pay3 (outsAt0 m c t.val t.isLt).2 (blk3 m c t) (ix2 p q) = arr m c (((cfg0.win 4).blk t).view.emb (ix2 p q))
  rw [hemb, arr_apply, pay3_apply, scratch_sum m c t h3]
  refine congrArg₂ (fun a b => a + b) ?_ (iblk3_apply m c t q n hn)
  rw [Finset.sum_congr rfl fun s hs => addend_eq m c t s (Finset.mem_range.mp hs) p q r n hr hn]
  exact BlockSum.sum_four_blocks (term m c r n)

end Cert.KernelIdeal.Flush

end
-- ==== Proof.Final.lean ====
/-
  The kernel's run, read: its result is the specification of its arguments.

  Every index `(r, o)` of the [4096, 16384] result lies in the block of the point with row-block `r / 512`, column-block
  `o / 1024` and last contraction step, and that point writes back; so after the run the whole array is the flattened
  result. The program then views it as [2, 2048, 16384], and had viewed its first argument as [4096, 4096] before the
  region: with both views undone the result is the specification `G` of the four arguments.
-/
import proofs.«175296_j84224308675079_1_alg».proof.Proof.Flush
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Final

open Cert.KernelIdeal Cert.KernelIdeal.Gen Cert.KernelIdeal.Blocks Cert.KernelIdeal.Flush

variable (m : (ℓ : Loc nD τ sig) → Buf (Elt Ideal) ℓ) (ρ : Dev nD → PrngReg)

/-- An index of the result array is in point `t`'s output block iff each coordinate is in the block's range. -/
theorem mem_blk (t : Fin cfg0.N) (i : S4096x16384.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v1).slice (win0_4.rect t)).set ↔ _
  rw [View.set_slice_whole, Rect.mem_set_unit]
  exact Iff.rfl

/-- Every index is in the block of some point that writes back. -/
theorem cover (i : S4096x16384.Idx) :
    ∃ t : Fin cfg0.N, (cfg0.win 4).flush t = true ∧ i ∈ ((cfg0.win 4).blk t).view.set := by
  have hi0 : (i 0).val < 4096 := (i 0).isLt
  have hi1 : (i 1).val < 16384 := (i 1).isLt
  have hN : cfg0.N = 512 := N_0
  obtain ⟨t, ht⟩ : ∃ t : Fin cfg0.N, t.val = 64 * ((i 0).val / 512) + 4 * ((i 1).val / 1024) + 3 :=
    ⟨⟨64 * ((i 0).val / 512) + 4 * ((i 1).val / 1024) + 3, by omega⟩, rfl⟩
  refine ⟨t, (flush0_4 t).mpr (by omega), ?_⟩
  rw [mem_blk]
  obtain ⟨-, -, -, -, -, -, e6, e7⟩ := idx_facts t
  intro a
  match a with
  | ⟨0, _⟩ =>
    show win0_4.index t (0 : Fin 2) * 512 ≤ (i 0).val ∧ (i 0).val < win0_4.index t (0 : Fin 2) * 512 + 512
    rw [e6]; omega
  | ⟨1, _⟩ =>
    show win0_4.index t (1 : Fin 2) * 1024 ≤ (i 1).val ∧ (i 1).val < win0_4.index t (1 : Fin 2) * 1024 + 1024
    rw [e7]; omega

/-- After the region the result array is the flattened result. -/
theorem final (c : Dev nD) : (dats m 0 c).arrAt 4 cfg0.N = arr m c :=
  (dats m 0 c).arrAt_eq_of_cover 4 (arr m c) (flushed_eq m c) cover

/-- The program's result: the flattened result viewed as [2, 2048, 16384]. -/
theorem tail_v2 (c : Dev nD) :
    Pipeline.afterTail₀ cfgs (dats m) 0 (V0 m) [hostOps1] c main_v2
      = shapeCast S2x2048x16384 (arr m c) Facts₀.shapeCasts_S4096x16384_S2x2048x16384 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = arr m c :=
    (Pipeline.withArrays_arr spec0 launch0.win.arr_inj c _ _ 4).trans (final m c)
  rw [e]
  rfl

/-- With both views undone, the program's result is the specification of its arguments. -/
theorem result_eq (c : Dev nD) :
    Pipeline.afterTail₀ cfgs (dats m) 0 (V0 m) [hostOps1] c main_v2
      = QLinear.G (m ((c : Thread nD τ).loc main_arg0)) (m ((c : Thread nD τ).loc main_arg1))
          (m ((c : Thread nD τ).loc main_arg2)) (m ((c : Thread nD τ).loc main_arg3)) := by
  rw [tail_v2]
  unfold arr X W sc bi
  rw [V_main_v0, V_main_arg1, V_main_arg2, V_main_arg3]
  exact QLinear.G2_reshape _ _ _ _ _ _

/-- The run: every weakly fair execution ends with the result at the specification of the arguments, the arguments
    unchanged. -/
theorem run : θ_run defs (onTc (τ := τ) (main (F := Ideal))) ⟨m, fun _ => 0, ρ⟩ fun r => ∀ c : Dev nD,
      r.2.mem ((c.tc : Thread nD τ).loc main_v2)
        = QLinear.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c))),
        ((h c).1 3).trans (((dats m 0 c).arrAt_in 3 rfl _).trans ((A_eq m c 3).trans (V_main_arg3 m c)))⟩)
    (run_main m ρ)

end Cert.KernelIdeal.Final

end
-- ==== Proof.RefSide.lean ====
/-
  The reference is the specification.

  The reference converts the integer weights, broadcasts the scale of row `o` along that row and multiplies, contracts the
  last axis of the activations with the last axis of the scaled weights, and adds the bias broadcast over the leading
  axes. Read at `(b, s, o)`: the product's element is the sum over `k` of `x[b, s, k]` times the scaled weight at `(o, k)`,
  the two broadcasts of the scale read entry `o`, and so do the two broadcasts of the bias.
-/
import proofs.«175296_j84224308675079_1_alg».proof.Proof.Gen.ReferenceIdeal.Read
import proofs.«175296_j84224308675079_1_alg».proof.Proof.Spec

noncomputable section

open Idealize.ShloMosaic Idealize.ShloMosaic.ValueIdx

namespace Cert.ReferenceIdeal.RefSide

open Cert.ReferenceIdeal Cert.ReferenceIdeal.Read

/-- The reference's last stage, as a function of the four arguments, is `G`. -/
theorem ref_eq (x0 : (⟨S2x2048x4096, .f32⟩ : BufTy).Contents (Elt Ideal)) (x1 : (⟨S16384x4096, .i32⟩ : BufTy).Contents (Elt Ideal))
    (x2 x3 : (⟨S16384, .f32⟩ : BufTy).Contents (Elt Ideal)) :
    val_main_v7 (F := Ideal) x0 x1 x2 x3 = QLinear.G x0 x1 x2 x3 := by
  funext i
  obtain ⟨b, s, o, rfl⟩ : ∃ (b : Fin 2) (s : Fin 2048) (o : Fin 16384), i = ix3 b s o := ⟨i 0, i 1, i 2, eq_ix3 i⟩
  have el : ∀ k : Fin 4096, lidx_main_v4 (ix3 b s o) k = ix3 b s k := fun k => funext fun a => Fin.ext (by
    match a with | ⟨0, _⟩ => rfl | ⟨1, _⟩ => rfl | ⟨2, _⟩ => rfl)
  have er : ∀ k : Fin 4096, ridx_main_v4 (ix3 b s o) k = ix2 o k := fun k => funext fun a => Fin.ext (by
    match a with | ⟨0, _⟩ => rfl | ⟨1, _⟩ => rfl)
  have es : ∀ k : Fin 4096, idx_main_v1 (idx_main_v2 (ix2 o k)) = ix1 o := fun k => funext fun a => Fin.ext (by
    match a with | ⟨0, _⟩ => rfl)
  have eb : idx_main_v5 (idx_main_v6 (ix3 b s o)) = ix1 o := funext fun a => Fin.ext (by
    match a with | ⟨0, _⟩ => rfl)
  rw [val_main_v7_apply, val_main_v4_apply, val_main_v6_apply, val_main_v5_apply, eb]
  simp only [val_main_v3_apply, val_main_v0_apply, val_main_v2_apply, val_main_v1_apply, el, er, es, Ideal.addf_def,
    Ideal.mulf_def]
  rfl

end Cert.ReferenceIdeal.RefSide

end
-- ==== Proof.lean ====
/-
  A linear layer with row-scaled integer weights: the tiled kernel against the one-line reference.

  Both programs compute, for every `(b, s, o)`,

      out[b, s, o] = Σ_{i < 4096} x[b, s, i] · (w[o, i] · scale[o]) + bias[o].

  The kernel tiles the flattened [4096, 16384] result into [512, 1024] blocks and walks the contraction axis in four
  steps of 1024, keeping a running block that starts from zero, receives one block product per step, and is written
  out with the bias added after the fourth step. On the extended reals the roundings to bf16 are the identity and a
  product into a zero accumulator is a plain sum, so the running block ends at `0 + (S₀ + S₁ + S₂ + S₃)` with `S_s` the sum
  over the columns `1024·s, …, 1024·s + 1023`; the four runs exhaust the 4096 columns, and regrouping a sum needs only
  that addition is commutative and associative. The reference contracts the whole axis at once. Neither side's
  equation uses finiteness of an input.

  The modules: the values each control case of the body leaves (Pieces), the body's stored values at an index
  (Payload), where each block sits in its array (Blocks), the running block across the four steps (Accum), the
  block-sum law (BlockSum), what a last step writes back (Flush), the whole array and the run (Final), the
  specification (Spec), and the reference read at an index (RefSide).
-/
import proofs.«175296_j84224308675079_1_alg».proof.Defs
import proofs.«175296_j84224308675079_1_alg».proof.Proof.Gen.Kernel
import proofs.«175296_j84224308675079_1_alg».proof.Proof.Gen.Kernel.Frame
import proofs.«175296_j84224308675079_1_alg».proof.Proof.Gen.KernelIdeal
import proofs.«175296_j84224308675079_1_alg».proof.Proof.Gen.KernelIdeal.Frame
import proofs.«175296_j84224308675079_1_alg».proof.Proof.Gen.ReferenceIdeal
import proofs.«175296_j84224308675079_1_alg».proof.Proof.Gen.ReferenceIdeal.Run
import proofs.«175296_j84224308675079_1_alg».proof.Proof.Gen.ReferenceIdeal.Read
import proofs.«175296_j84224308675079_1_alg».proof.Proof.Gen.Pre_finite_inputs
import proofs.«175296_j84224308675079_1_alg».proof.Proof.Final
import proofs.«175296_j84224308675079_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories that agree on the arguments both programs end with the specification `G` of those arguments. -/
theorem algebraic : Cert.algebraic_KernelIdeal_ReferenceIdeal := by
  intro m ρ m' ρ' _ hagree
  refine ⟨fun c => QLinear.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefSide.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
